-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x100 : Shape := ⟨3, ![512, 512, 100]⟩
abbrev S512 : Shape := ⟨1, ![512]⟩
abbrev S_ : Shape := ⟨0, ![]⟩

class Facts : Prop where
  bcast_S_S512x512x100 : S_.BroadcastsInDim S512x512x100 (![] : Fin 0 → Fin S512x512x100.rank)
  reducesTo_S512x512x100_S_d0_1_2 : S512x512x100.ReducesTo [0, 1, 2] S_
  h_S_ : 0 < S_.numel

variable [Facts]

def fn {F : FTy → Type} [FloatOps F] (main_arg0 : FVec F S512x512x100 .f32) (main_arg1 : IVec S512 32) (main_arg2 : IVec S512 32) (main_arg3 : IVec S512 32) : IVec S_ 1 :=
  let main_v0 : FVec F S512x512x100 .f32 := Host.absf main_arg0
  let main_cst : FVec F S_ .f32 := constant S_ .f32 0x7F800000#32
  let main_v1 : FVec F S512x512x100 .f32 := broadcastInDim S512x512x100 ![] bcast_S_S512x512x100 main_cst
  let main_v2 : IVec S512x512x100 1 := cmpf .olt main_v0 main_v1
  let main_c : IVec S_ 1 := constantI S_ 1 1#1
  let main_v3 : IVec S_ 1 := (fun x v => Host.reduce IntOp.andi x v reducesTo_S512x512x100_S_d0_1_2 h_S_) main_v2 main_c
  main_v3
-- ==== Kernel.lean ====
abbrev S512x512x100 : Shape := ⟨3, ![512, 512, 100]⟩
abbrev S512 : Shape := ⟨1, ![512]⟩
abbrev S512x1 : Shape := ⟨2, ![512, 1]⟩
abbrev S512x3 : Shape := ⟨2, ![512, 3]⟩
abbrev S512x51200 : Shape := ⟨2, ![512, 51200]⟩
abbrev S16x51200 : Shape := ⟨2, ![16, 51200]⟩
abbrev S16x3 : Shape := ⟨2, ![16, 3]⟩
abbrev S16x1 : Shape := ⟨2, ![16, 1]⟩

abbrev nBuf : Space → Nat
  | .hbm => 12
  | .vmem => 6
  | .smem => 0
  | _ => 0

abbrev bufTy : (tb : Table) → Fin (tcTables nBuf tb) → BufTy
  | .hbm, ⟨0, _⟩ => ⟨S512x512x100, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S512x1, .i32⟩
  | .hbm, ⟨6, _⟩ => ⟨S512x1, .i32⟩
  | .hbm, ⟨7, _⟩ => ⟨S512x1, .i32⟩
  | .hbm, ⟨8, _⟩ => ⟨S512x3, .i32⟩
  | .hbm, ⟨9, _⟩ => ⟨S512x51200, .f32⟩
  | .hbm, ⟨10, _⟩ => ⟨S512x51200, .f32⟩
  | .hbm, ⟨11, _⟩ => ⟨S512x512x100, .f32⟩
  | .local _ .vmem, ⟨0, _⟩ => ⟨S16x51200, .f32⟩
  | .local _ .vmem, ⟨1, _⟩ => ⟨S16x51200, .f32⟩
  | .local _ .vmem, ⟨2, _⟩ => ⟨S16x3, .i32⟩
  | .local _ .vmem, ⟨3, _⟩ => ⟨S16x3, .i32⟩
  | .local _ .vmem, ⟨4, _⟩ => ⟨S16x51200, .f32⟩
  | .local _ .vmem, ⟨5, _⟩ => ⟨S16x51200, .f32⟩
  | _, _ => ⟨S512x512x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x51200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S512x1_0 : S512.BroadcastsInDim S512x1 (![0] : Fin 1 → Fin S512x1.rank)
  concatenates_S512x1_S512x1_S512x1_S512x3_d1 : Shape.Concatenates [S512x1, S512x1, S512x1] S512x3 1
  shapeCasts_S512x512x100_S512x51200 : S512x512x100.ShapeCasts S512x51200
  iota_S16x51200_d1_w32 : S16x51200.Iotas .tc 32 [1]
  natLt_1_32 : 1 < 32
  inb_S16x3_S16x3_0_0 : ∀ a, (![0, 0] : Fin 2 → Nat) a + S16x3.size a ≤ S16x3.size a
  h_S16x3 : 0 < S16x3.numel
  shapeCasts_S16x3_S16x3 : S16x3.ShapeCasts S16x3
  slices_S16x3_o0_0_S16x1 : S16x3.Slices ![0, 0] S16x1
  slices_S16x3_o0_1_S16x1 : S16x3.Slices ![0, 1] S16x1
  slices_S16x3_o0_2_S16x1 : S16x3.Slices ![0, 2] S16x1
  broadcasts_S16x1_S16x51200 : S16x1.Broadcasts S16x51200
  inb_S16x51200_S16x51200_0_0 : ∀ a, (![0, 0] : Fin 2 → Nat) a + S16x51200.size a ≤ S16x51200.size a
  h_S16x51200 : 0 < S16x51200.numel
  shapeCasts_S16x51200_S16x51200 : S16x51200.ShapeCasts S16x51200
  shapeCasts_S512x51200_S512x512x100 : S512x51200.ShapeCasts S512x512x100
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x51200.size a ≤ S512x51200.size a
  hwx0_0 : ∀ i : grid0.Coords, EltTy.bits .f32 = 32 ∨ (Rect.block (s := S512x51200) S16x51200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3.size a ≤ S512x3.size a
  hwx0_1 : ∀ i : grid0.Coords, EltTy.bits .i32 = 32 ∨ (Rect.block (s := S512x3) S16x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x51200.size a ≤ S512x51200.size a
  hwx0_2 : ∀ i : grid0.Coords, EltTy.bits .f32 = 32 ∨ (Rect.block (s := S512x51200) S16x51200.size (cc0_transform_2 i) (hinb0_2 i)).WholeWords (EltTy.packing .f32)

variable [Facts₀]

abbrev win0_0 : Pipeline.Window sig grid0 :=
  Pipeline.Window.ofSpec (Memref.whole main_v5) S16x51200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x51200.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512x100 : Shape := ⟨3, ![512, 512, 100]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩

abbrev nBuf : Space → Nat
  | .hbm => 45
  | .vmem => 0
  | .smem => 0
  | _ => 0

abbrev bufTy : (tb : Table) → Fin (tcTables nBuf tb) → BufTy
  | .hbm, ⟨0, _⟩ => ⟨S512x512x100, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S1x512, .i32⟩
  | .hbm, ⟨6, _⟩ => ⟨S1x512, .f32⟩
  | .hbm, ⟨7, _⟩ => ⟨S512, .i32⟩
  | .hbm, ⟨8, _⟩ => ⟨S512x1, .i32⟩
  | .hbm, ⟨9, _⟩ => ⟨S512x1, .f32⟩
  | .hbm, ⟨10, _⟩ => ⟨S512x1, .i32⟩
  | .hbm, ⟨11, _⟩ => ⟨S512x1, .f32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512x1, .f32⟩
  | .hbm, ⟨43, _⟩ => ⟨S512x512x100, .f32⟩
  | .hbm, ⟨44, _⟩ => ⟨S512x512x100, .f32⟩
  | _, _ => ⟨S512x512x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x1_S512x512x100_0_1_2 : S512x512x1.BroadcastsInDim S512x512x100 (![0, 1, 2] : Fin 3 → Fin S512x512x100.rank)

variable [Facts₀]

class Facts : Prop extends Facts₀ where

variable [Facts]
-- ==== Proof.FrameKernel.lean ====
/-
  The frame of `Kernel`: @main runs to its end, nothing faults, and the four argument arrays end as launched.

  @main is six host operations (the integer sum `aspect_Index + aspect_len`, three [512] → [512,1] column
  broadcasts, their concatenation into the packed [512,3] scalar table, and the row-major flattening of the data to
  [512, 51200]), one pipelined region over a grid of 32 points, and one host operation after it (the flattening
  undone). At grid point `t` the region stages rows 16·t … 16·t+15 of the flattened data and of the scalar table,
  and writes back the same 16 rows of the result. The body reads both input blocks whole and overwrites the output
  block whole with ONE store, so what the output's staging buffer holds after the body is a function of the two
  input blocks alone (`blockOut`); nothing is carried from one grid point to the next.
-/
import proofs.«142707_j26783416058417_2_alg».proof.Proof.Gen.Kernel.Launch
import proofs.«142707_j26783416058417_2_alg».proof.Proof.Gen.Kernel.Skeleton
import proofs.«142707_j26783416058417_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.MaskMul

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the six host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is: the host operations before the region, the region, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operation after the region touches only unscoped buffers: arrays of the pipeline, or buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- It writes `main_v7`, which is none of the pipeline's three arrays (`main_v5`, `main_v4`, `main_v6`). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- A buffer none of the six host operations writes is found by the region as launched. -/
theorem entry_of_unwritten (c : Dev nD) (b : Ref sig .tc)
    (hb : ∀ op ∈ List.flatten [(hostOps0 : List (HloOp τ sig (Elt F)))], Proc.devRef .tc b ∉ op.writes) :
    V m c b = m ((c : Thread nD τ).loc b) :=
  StableHlo.after_of_forall_not_mem (b := Proc.devRef .tc b) _ _ hb

/-- The host operations before the region write `main_v0` … `main_v5` only. -/
local macro "unwritten_before" : tactic => `(tactic| (
  refine List.forall_iff_forall_mem.mp ?_
  simp only [hostOps0, List.flatten_cons, List.flatten_nil, List.append_nil, List.cons_append,
    List.nil_append, List.Forall, StableHlo.unary_writes, StableHlo.binary_writes, StableHlo.nary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  entry_of_unwritten m c main_arg0 (by unwritten_before)
theorem V_main_arg1 (c : Dev nD) : V m c main_arg1 = m ((c : Thread nD τ).loc main_arg1) :=
  entry_of_unwritten m c main_arg1 (by unwritten_before)
theorem V_main_arg2 (c : Dev nD) : V m c main_arg2 = m ((c : Thread nD τ).loc main_arg2) :=
  entry_of_unwritten m c main_arg2 (by unwritten_before)
theorem V_main_arg3 (c : Dev nD) : V m c main_arg3 = m ((c : Thread nD τ).loc main_arg3) :=
  entry_of_unwritten m c main_arg3 (by unwritten_before)

/-- A buffer that is no array of the pipeline and that the operation after the region does not write ends at its
    region-entry contents. -/
theorem exit_of_unwritten (dats : (p : Fin _) → (c : Dev nD) → Dat τ (Elt F) Unit ℕ (UR sig nD τ) ℕ (cfgs p) c) (c : Dev nD)
    (b : Ref sig .tc) (hb : ∀ op ∈ List.flatten [(hostOps1 : List (HloOp τ sig (Elt F)))], Proc.devRef .tc b ∉ op.writes)
    (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hb,
    Pipeline.withArrays_of_ne _ c (V0 m c) _ b harr]

local macro "unwritten_after" : tactic => `(tactic| (
  refine List.forall_iff_forall_mem.mp ?_
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (exit_of_unwritten m dats c main_arg0 (by unwritten_after) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (exit_of_unwritten m dats c main_arg1 (by unwritten_after) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (exit_of_unwritten m dats c main_arg2 (by unwritten_after) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (exit_of_unwritten m dats c main_arg3 (by unwritten_after) (by decide)).trans (V_main_arg3 m c)

/-! ## The windows' blocks -/

/-- Window `w`'s block at grid point `t`, read off its array as the region finds it: 16 rows starting at row 16·t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The data window's current staging buffer holds its block at every point, for any proof data whose array is the
    region-entry one and whose body leaves the block in place. -/
theorem before_data_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the scalar table's window. -/
theorem before_scalars_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole scalar block, and the whole data (and result) block. -/
abbrev rScalars : Rect S16x3 := Rect.unit (s := S16x3) ![0, 0] S16x3.size inb_S16x3_S16x3_0_0
abbrev rData : Rect S16x51200 := Rect.unit (s := S16x51200) ![0, 0] S16x51200.size inb_S16x51200_S16x51200_0_0

/-- The result block after the body, from the data block `x` and the scalar block `s`: the body's one store covers
    the block, its payload the data times the position mask computed from the scalars. -/
def blockOut (x : Vec F S16x51200 .f32) (s : Vec F S16x3 .i32) : Vec F S16x51200 .f32 :=
  View.canon [⟨rData, k0_pay1 (k0_pay5 (View.ld s rScalars)) (k0_pay6 (View.ld s rScalars)) (k0_pay7 (View.ld s rScalars))
    (k0_pay8 (View.ld s rScalars)) (Scalar.ofBits .f32 0x3F800000#32) (View.ld x rData)⟩]

/-- The one store covers the block. -/
theorem store_covers (p : Vec F S16x51200 .f32) (y : S16x51200.Idx) :
    ∃ pc ∈ ([⟨rData, p⟩] : List (View.Piece (Elt F) S16x51200 .f32)), y ∈ pc.1.set :=
  View.cover_of_tiled [⟨rData, p⟩] S16x51200.size (by rfl) y

set_option maxHeartbeats 1000000 in
/-- The body on whole staging buffers — the data's at `x`, the scalars' at `s`, the result's at anything — runs to the
    continuation with the inputs' as they were and the result's at `blockOut x s`. -/
theorem sound_kernel (c : Dev nD) (E : Set ℕ) (i : grid0.Coords)
    (arg1 : Memref sig .tc .vmem S16x51200 .f32) (harg1 : arg1.IsWhole) (arg2 : Memref sig .tc .vmem S16x3 .i32) (harg2 : arg2.IsWhole)
    (arg3 : Memref sig .tc .vmem S16x51200 .f32) (harg3 : arg3.IsWhole)
    (x : Vec F S16x51200 .f32) (s : Vec F S16x3 .i32) (K : PUnit → sProp 𝕄) :
    iprop(owns (c : Thread nD τ) arg1 fullShare x ∗ owns (c : Thread nD τ) arg2 fullShare s ∗ (∃ d, owns (c : Thread nD τ) arg3 fullShare d)
        ∗ (iprop(owns (c : Thread nD τ) arg1 fullShare x ∗ owns (c : Thread nD τ) arg2 fullShare s ∗ owns (c : Thread nD τ) arg3 fullShare (blockOut x s)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (store_covers _)

/-! ## The pipeline's proof data -/

/-- On core `c`: the arrays as the region finds them; after the body at point `t` each input's buffer at its block and
    the result's at `blockOut` of the two input blocks; the invariant holds only what the body never touches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_data (c : Dev nD) (t : Fin cfg0.N) : (dats m 0 c).after 0 t = iblk m c 0 t := by dsimp only [dats]
theorem after_scalars (c : Dev nD) (t : Fin cfg0.N) : (dats m 0 c).after 1 t = iblk m c 1 t := by dsimp only [dats]
theorem after_result (c : Dev nD) (t : Fin cfg0.N) :
    (dats m 0 c).after 2 t = blockOut (iblk m c 0 t) (iblk m c 1 t) := by dsimp only [dats]

theorem before_data (c : Dev nD) (t : Fin cfg0.N) (d) : (dats m 0 c).before 0 t d = iblk m c 0 t :=
  before_data_of m (dats m 0 c) (A_eq m c 0) (after_data m c) t d
theorem before_scalars (c : Dev nD) (t : Fin cfg0.N) (d) : (dats m 0 c).before 1 t d = iblk m c 1 t :=
  before_scalars_of m (dats m 0 c) (A_eq m c 1) (after_scalars m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_data, before_scalars]
  rw [show (dats m 0 c).Φ t.succ = (dats m 0 c).Φ t.castSucc from rfl,
    show (dats m 0 c).owesAt () t.succ = (dats m 0 c).owesAt () t.castSucc from rfl,
    after_data, after_scalars, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end each array of the pipeline holds what the proof data
    compute, and every other unscoped buffer what the host operation after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the four argument arrays bypass the region and the operation after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.Kernel.MaskMul

end
-- ==== Proof.FrameKernelIdeal.lean ====
/-
  The frame of `KernelIdeal`: @main runs to its end, nothing faults, and the four argument arrays end as launched.

  @main is six host operations (the integer sum `aspect_Index + aspect_len`, three [512] → [512,1] column
  broadcasts, their concatenation into the packed [512,3] scalar table, and the row-major flattening of the data to
  [512, 51200]), one pipelined region over a grid of 32 points, and one host operation after it (the flattening
  undone). At grid point `t` the region stages rows 16·t … 16·t+15 of the flattened data and of the scalar table,
  and writes back the same 16 rows of the result. The body reads both input blocks whole and overwrites the output
  block whole with ONE store, so what the output's staging buffer holds after the body is a function of the two
  input blocks alone (`blockOut`); nothing is carried from one grid point to the next.
-/
import proofs.«142707_j26783416058417_2_alg».proof.Proof.Gen.KernelIdeal.Launch
import proofs.«142707_j26783416058417_2_alg».proof.Proof.Gen.KernelIdeal.Skeleton
import proofs.«142707_j26783416058417_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.MaskMul

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the six host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates a buffer. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is: the host operations before the region, the region, the host operation after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operation after the region touches only unscoped buffers: arrays of the pipeline, or buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop
/-- It writes `main_v7`, which is none of the pipeline's three arrays (`main_v5`, `main_v4`, `main_v6`). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- A buffer none of the six host operations writes is found by the region as launched. -/
theorem entry_of_unwritten (c : Dev nD) (b : Ref sig .tc)
    (hb : ∀ op ∈ List.flatten [(hostOps0 : List (HloOp τ sig (Elt F)))], Proc.devRef .tc b ∉ op.writes) :
    V m c b = m ((c : Thread nD τ).loc b) :=
  StableHlo.after_of_forall_not_mem (b := Proc.devRef .tc b) _ _ hb

/-- The host operations before the region write `main_v0` … `main_v5` only. -/
local macro "unwritten_before" : tactic => `(tactic| (
  refine List.forall_iff_forall_mem.mp ?_
  simp only [hostOps0, List.flatten_cons, List.flatten_nil, List.append_nil, List.cons_append,
    List.nil_append, List.Forall, StableHlo.unary_writes, StableHlo.binary_writes, StableHlo.nary_writes,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  entry_of_unwritten m c main_arg0 (by unwritten_before)
theorem V_main_arg1 (c : Dev nD) : V m c main_arg1 = m ((c : Thread nD τ).loc main_arg1) :=
  entry_of_unwritten m c main_arg1 (by unwritten_before)
theorem V_main_arg2 (c : Dev nD) : V m c main_arg2 = m ((c : Thread nD τ).loc main_arg2) :=
  entry_of_unwritten m c main_arg2 (by unwritten_before)
theorem V_main_arg3 (c : Dev nD) : V m c main_arg3 = m ((c : Thread nD τ).loc main_arg3) :=
  entry_of_unwritten m c main_arg3 (by unwritten_before)

/-- A buffer that is no array of the pipeline and that the operation after the region does not write ends at its
    region-entry contents. -/
theorem exit_of_unwritten (dats : (p : Fin _) → (c : Dev nD) → Dat τ (Elt F) Unit ℕ (UR sig nD τ) ℕ (cfgs p) c) (c : Dev nD)
    (b : Ref sig .tc) (hb : ∀ op ∈ List.flatten [(hostOps1 : List (HloOp τ sig (Elt F)))], Proc.devRef .tc b ∉ op.writes)
    (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hb,
    Pipeline.withArrays_of_ne _ c (V0 m c) _ b harr]

local macro "unwritten_after" : tactic => `(tactic| (
  refine List.forall_iff_forall_mem.mp ?_
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (exit_of_unwritten m dats c main_arg0 (by unwritten_after) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (exit_of_unwritten m dats c main_arg1 (by unwritten_after) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (exit_of_unwritten m dats c main_arg2 (by unwritten_after) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (exit_of_unwritten m dats c main_arg3 (by unwritten_after) (by decide)).trans (V_main_arg3 m c)

/-! ## The windows' blocks -/

/-- Window `w`'s block at grid point `t`, read off its array as the region finds it: 16 rows starting at row 16·t. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The data window's current staging buffer holds its block at every point, for any proof data whose array is the
    region-entry one and whose body leaves the block in place. -/
theorem before_data_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the scalar table's window. -/
theorem before_scalars_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

/-- The whole scalar block, and the whole data (and result) block. -/
abbrev rScalars : Rect S16x3 := Rect.unit (s := S16x3) ![0, 0] S16x3.size inb_S16x3_S16x3_0_0
abbrev rData : Rect S16x51200 := Rect.unit (s := S16x51200) ![0, 0] S16x51200.size inb_S16x51200_S16x51200_0_0

/-- The result block after the body, from the data block `x` and the scalar block `s`: the body's one store covers
    the block, its payload the data times the position mask computed from the scalars. -/
def blockOut (x : Vec F S16x51200 .f32) (s : Vec F S16x3 .i32) : Vec F S16x51200 .f32 :=
  View.canon [⟨rData, k0_pay1 (k0_pay5 (View.ld s rScalars)) (k0_pay6 (View.ld s rScalars)) (k0_pay7 (View.ld s rScalars))
    (k0_pay8 (View.ld s rScalars)) (Scalar.ofBits .f32 0x3F800000#32) (View.ld x rData)⟩]

/-- The one store covers the block. -/
theorem store_covers (p : Vec F S16x51200 .f32) (y : S16x51200.Idx) :
    ∃ pc ∈ ([⟨rData, p⟩] : List (View.Piece (Elt F) S16x51200 .f32)), y ∈ pc.1.set :=
  View.cover_of_tiled [⟨rData, p⟩] S16x51200.size (by rfl) y

set_option maxHeartbeats 1000000 in
/-- The body on whole staging buffers — the data's at `x`, the scalars' at `s`, the result's at anything — runs to the
    continuation with the inputs' as they were and the result's at `blockOut x s`. -/
theorem sound_kernel (c : Dev nD) (E : Set ℕ) (i : grid0.Coords)
    (arg1 : Memref sig .tc .vmem S16x51200 .f32) (harg1 : arg1.IsWhole) (arg2 : Memref sig .tc .vmem S16x3 .i32) (harg2 : arg2.IsWhole)
    (arg3 : Memref sig .tc .vmem S16x51200 .f32) (harg3 : arg3.IsWhole)
    (x : Vec F S16x51200 .f32) (s : Vec F S16x3 .i32) (K : PUnit → sProp 𝕄) :
    iprop(owns (c : Thread nD τ) arg1 fullShare x ∗ owns (c : Thread nD τ) arg2 fullShare s ∗ (∃ d, owns (c : Thread nD τ) arg3 fullShare d)
        ∗ (iprop(owns (c : Thread nD τ) arg1 fullShare x ∗ owns (c : Thread nD τ) arg2 fullShare s ∗ owns (c : Thread nD τ) arg3 fullShare (blockOut x s)) -∗ K ⟨⟩))
      ⊢ wp frame (wpE (defs₀ (F := F)) Variants.none c none) E (cc0__mask_mul_kernel i arg1 harg1 arg2 harg2 arg3 harg3) K := by
  simp only [cc0__mask_mul_kernel_eq_skeleton]; unfold cc0__mask_mul_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (store_covers _)

/-! ## The pipeline's proof data -/

/-- On core `c`: the arrays as the region finds them; after the body at point `t` each input's buffer at its block and
    the result's at `blockOut` of the two input blocks; the invariant holds only what the body never touches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_data (c : Dev nD) (t : Fin cfg0.N) : (dats m 0 c).after 0 t = iblk m c 0 t := by dsimp only [dats]
theorem after_scalars (c : Dev nD) (t : Fin cfg0.N) : (dats m 0 c).after 1 t = iblk m c 1 t := by dsimp only [dats]
theorem after_result (c : Dev nD) (t : Fin cfg0.N) :
    (dats m 0 c).after 2 t = blockOut (iblk m c 0 t) (iblk m c 1 t) := by dsimp only [dats]

theorem before_data (c : Dev nD) (t : Fin cfg0.N) (d) : (dats m 0 c).before 0 t d = iblk m c 0 t :=
  before_data_of m (dats m 0 c) (A_eq m c 0) (after_data m c) t d
theorem before_scalars (c : Dev nD) (t : Fin cfg0.N) (d) : (dats m 0 c).before 1 t d = iblk m c 1 t :=
  before_scalars_of m (dats m 0 c) (A_eq m c 1) (after_scalars m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_data, before_scalars]
  rw [show (dats m 0 c).Φ t.succ = (dats m 0 c).Φ t.castSucc from rfl,
    show (dats m 0 c).owesAt () t.succ = (dats m 0 c).owesAt () t.castSucc from rfl,
    after_data, after_scalars, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end each array of the pipeline holds what the proof data
    compute, and every other unscoped buffer what the host operation after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: the four argument arrays bypass the region and the operation after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.MaskMul

end
-- ==== Proof.MaskSpec.lean ====
/-
  The position mask, as ONE function of a sentence's three integer scalars and a position, and the two arithmetic
  facts that let the kernel and the reference meet in it.

  For a sentence with aspect end `e` (exclusive), aspect start `a` and length `n`, position `l` is weighted

      1 - (e - l) / 40     if l < e,
      1 - (l - a) / 40     if e ≤ l < n,
      0                    otherwise,

  the comparisons on the integers read signed, the arithmetic exact on the extended reals (an integer converts to
  the real it is). The kernel recovers `l` from the flattened column `q = 100·l + h` as `q // 100` — a truncating
  division corrected toward −∞, which on `0 ≤ q` is plain division (`floorDiv100`) — and compares the CONVERTED
  numbers; between two converted integers the reals' order is the integers' (`olt_sitofp`).
-/
import Idealize.ShloMosaic.Lib.Affine
import Idealize.ShloMosaic.Lib.ValueIdx
import Idealize.ShloMosaic.PureOps.Ideal

noncomputable section

namespace Cert.MaskSpec

open Idealize.ShloMosaic

/-- The weight of position `l` in a sentence with aspect end `e`, aspect start `a`, length `n`. -/
def maskAt (e a n l : BitVec 32) : EReal :=
  Scalar.select (IntOp.cmpi .slt l e)
    (Ideal.ofBits .f32 0x3F800000#32
      - Ideal.div (((e.toInt : ℝ) : EReal) - ((l.toInt : ℝ) : EReal)) (Ideal.ofBits .f32 0x42200000#32))
    (Scalar.select (IntOp.cmpi .slt l n)
      (Ideal.ofBits .f32 0x3F800000#32
        - Ideal.div (((l.toInt : ℝ) : EReal) - ((a.toInt : ℝ) : EReal)) (Ideal.ofBits .f32 0x42200000#32))
      (Ideal.ofBits .f32 0x00000000#32))

/-- Between two converted integers, "less than" on the extended reals is the signed comparison of the words. -/
theorem olt_sitofp (x y : BitVec 32) :
    Ideal.cmp .olt (((x.toInt : ℝ) : EReal)) (((y.toInt : ℝ) : EReal)) = IntOp.cmpi .slt x y := by
  unfold Ideal.cmp IntOp.cmpi
  refine congrArg BitVec.ofBool ?_
  show decide ((((x.toInt : ℝ) : EReal)) < (((y.toInt : ℝ) : EReal))) = x.slt y
  rw [BitVec.slt_eq_decide]
  exact decide_eq_decide.mpr (by rw [EReal.coe_lt_coe_iff, Int.cast_lt])

/-- Truncating division of a small nonnegative word by 100 is the naturals' division. -/
theorem divsi100 (q : Nat) (hq : q < 51200) :
    IntOp.divsi .vector (BitVec.ofNat 32 q) 100#32 = BitVec.ofNat 32 (q / 100) := by
  have hy : 0 < (100#32 : BitVec 32).toInt := by decide
  rw [IntOp.divsi, if_neg (IntOp.not_corner_of_pos hy)]
  have hm : (BitVec.ofNat 32 q).msb = false := by
    rw [BitVec.msb_eq_false_iff_two_mul_lt, BitVec.toNat_ofNat]; omega
  have hm' : (100#32 : BitVec 32).msb = false := by decide
  rw [BitVec.sdiv_eq, hm, hm']
  apply BitVec.eq_of_toNat_eq
  show ((BitVec.ofNat 32 q) / 100#32).toNat = _
  rw [BitVec.toNat_udiv, BitVec.toNat_ofNat, BitVec.toNat_ofNat]
  show q % 2 ^ 32 / 100 = q / 100 % 2 ^ 32
  have h1 : q % 2 ^ 32 = q := Nat.mod_eq_of_lt (by omega)
  have h2 : q / 100 % 2 ^ 32 = q / 100 := Nat.mod_eq_of_lt (by omega)
  rw [h1, h2]

/-- `q // 100` as the kernel computes it — truncating division, less one where the signs of dividend and divisor
    differ and the remainder is not zero — is `q / 100` on a nonnegative `q`: the signs never differ. -/
theorem floorDiv100 (q : Nat) (hq : q < 51200) :
    Scalar.select
      (IntOp.andi
        (IntOp.cmpi .ne
          (IntOp.subi ((IntOp.cmpi .sgt (BitVec.ofNat 32 q) 0#32).setWidth 32)
            ((IntOp.cmpi .slt (BitVec.ofNat 32 q) 0#32).setWidth 32))
          (Scalar.subi (Scalar.extui (Scalar.cmpi .sgt 100#32 0#32)) (Scalar.extui (Scalar.cmpi .slt 100#32 0#32))))
        (IntOp.cmpi .ne (IntOp.remsi .vector (BitVec.ofNat 32 q) 100#32) 0#32))
      (IntOp.subi (IntOp.divsi .vector (BitVec.ofNat 32 q) 100#32) 1#32)
      (IntOp.divsi .vector (BitVec.ofNat 32 q) 100#32)
    = BitVec.ofNat 32 (q / 100) := by
  rcases Nat.eq_zero_or_pos q with h0 | hpos
  · subst h0; decide
  · have hI : (BitVec.ofNat 32 q).toInt = (q : Int) := by
      rw [BitVec.toInt_eq_toNat_of_lt (by rw [BitVec.toNat_ofNat]; omega), BitVec.toNat_ofNat]
      exact congrArg Int.ofNat (Nat.mod_eq_of_lt (by omega))
    have hz : (0#32 : BitVec 32).toInt = 0 := by decide
    have hsgt : IntOp.cmpi .sgt (BitVec.ofNat 32 q) 0#32 = 1#1 :=
      IntOp.cmpi_sgt.mpr (by rw [hI, hz]; exact_mod_cast hpos)
    have hslt : IntOp.cmpi .slt (BitVec.ofNat 32 q) 0#32 = 0#1 :=
      ValueIdx.eq_zero_of_ne_one (fun h => by
        have := IntOp.cmpi_slt.mp h; rw [hI, hz] at this; omega)
    rw [hsgt, hslt]
    have hsame : IntOp.cmpi .ne (IntOp.subi ((1#1 : BitVec 1).setWidth 32) ((0#1 : BitVec 1).setWidth 32))
        (Scalar.subi (Scalar.extui (Scalar.cmpi .sgt 100#32 0#32)) (Scalar.extui (Scalar.cmpi .slt 100#32 0#32))) = 0#1 := by
      decide
    rw [hsame]
    have hand : ∀ c : BitVec 1, IntOp.andi 0#1 c = 0#1 := by decide
    rw [hand, ValueIdx.select_zero]
    exact divsi100 q hq

/-! ## The whole result as one function of the four arguments -/

/-- The data's shape [512 sentences, 512 positions, 100 features] and the per-sentence scalars' shape [512]. -/
abbrev Sdata : Shape := ⟨3, ![512, 512, 100]⟩
abbrev Svec : Shape := ⟨1, ![512]⟩

/-- The sentence an entry of the data belongs to, as an index of the per-sentence arrays. -/
def row (i : Sdata.Idx) : Svec.Idx := ValueIdx.ix1 (n := 512) ⟨(i 0).val, (i 0).isLt⟩

/-- Entry (b, l, h) of the result: the data's entry times the weight of position `l` in sentence `b`, whose aspect
    ends at `aspect_Index b + aspect_len b` (the 32-bit sum), starts at `aspect_Index b`, and whose length is
    `sents_len b`. The weight does not depend on the feature `h`. -/
def G (data : Sdata.Idx → EReal) (aspectIndex aspectLen sentsLen : Svec.Idx → BitVec 32) : Sdata.Idx → EReal := fun i =>
  data i * maskAt (IntOp.addi (aspectIndex (row i)) (aspectLen (row i))) (aspectIndex (row i)) (sentsLen (row i))
    (BitVec.ofNat 32 (i 1).val)

end Cert.MaskSpec

end
-- ==== Proof.KernelBlock.lean ====
/-
  What one grid point computes, read at an entry. The body's one store writes, at row `p` and flattened column `q` of
  the 16 × 51200 block, the data's entry times the position mask of row `p`'s three scalars — aspect end, aspect
  start, sentence length, the three columns of the 16 × 3 scalar block — at position `q / 100`: the column iota divided
  by the feature count, a division the kernel corrects toward −∞ and that on a nonnegative column is plain division.
  The scalars reach every column by a [16,1] → [16,51200] broadcast of one-column slices of the converted block.
-/
import proofs.«142707_j26783416058417_2_alg».proof.Proof.FrameKernelIdeal
import proofs.«142707_j26783416058417_2_alg».proof.Proof.MaskSpec
import Idealize.ShloMosaic.Lib.Pipeline.Value
import Idealize.ShloMosaic.Lib.ValueIdx

noncomputable section

namespace Cert.KernelIdeal.MaskValue

open Cert.KernelIdeal.Gen Cert.KernelIdeal.MaskMul Cert.MaskSpec
open Idealize.ShloMosaic Idealize.ShloMosaic.ValueIdx

theorem origin2 : (![0, 0] : Fin 2 → Nat) = fun _ => 0 := funext fun a => by fin_cases a <;> rfl

/-- A [16,1] column broadcast along the 51200 columns reads, at (p, q), the column's row p. -/
theorem column_at {α : Type} (col : S16x1.Idx → α) (p : Fin 16) (q : Fin 51200) :
    broadcastTo S16x51200 col broadcasts_S16x1_S16x51200 (ix2 p q) = col (ix2 p 0) :=
  broadcastTo_apply col broadcasts_S16x1_S16x51200 (ix2 p q) (ix2 p 0) (fun a => by
    match a with
    | ⟨0, _⟩ => show p.val = if (16 : Nat) = 1 then 0 else p.val; rw [if_neg (by decide)]
    | ⟨1, _⟩ => show (0 : Nat) = if (1 : Nat) = 1 then 0 else q.val; rw [if_pos rfl])

/-- The one-column slices of a [16,3] block at offsets 0, 1, 2 read its columns 0, 1, 2. -/
theorem slice0_at {α : Type} (v : S16x3.Idx → α) (p : Fin 16) :
    extractStridedSlice S16x1 ![0, 0] v slices_S16x3_o0_0_S16x1 (ix2 p 0) = v (ix2 p 0) :=
  extractStridedSlice_apply ![0, 0] v slices_S16x3_o0_0_S16x1 (ix2 p 0) (ix2 p 0) (fun a => by
    match a with
    | ⟨0, _⟩ => show p.val = 0 + p.val; omega
    | ⟨1, _⟩ => show (0 : Nat) = 0 + 0; rfl)
theorem slice1_at {α : Type} (v : S16x3.Idx → α) (p : Fin 16) :
    extractStridedSlice S16x1 ![0, 1] v slices_S16x3_o0_1_S16x1 (ix2 p 0) = v (ix2 p 1) :=
  extractStridedSlice_apply ![0, 1] v slices_S16x3_o0_1_S16x1 (ix2 p 0) (ix2 p 1) (fun a => by
    match a with
    | ⟨0, _⟩ => show p.val = 0 + p.val; omega
    | ⟨1, _⟩ => show (1 : Nat) = 1 + 0; rfl)
theorem slice2_at {α : Type} (v : S16x3.Idx → α) (p : Fin 16) :
    extractStridedSlice S16x1 ![0, 2] v slices_S16x3_o0_2_S16x1 (ix2 p 0) = v (ix2 p 2) :=
  extractStridedSlice_apply ![0, 2] v slices_S16x3_o0_2_S16x1 (ix2 p 0) (ix2 p 2) (fun a => by
    match a with
    | ⟨0, _⟩ => show p.val = 0 + p.val; omega
    | ⟨1, _⟩ => show (2 : Nat) = 2 + 0; rfl)

/-- The position of flattened column `q`, converted: the column iota floor-divided by 100 is `q / 100`. -/
theorem position_at (p : Fin 16) (q : Fin 51200) :
    k0_pay2 (F := Ideal) (ix2 p q) = (((BitVec.ofNat 32 (q.val / 100)).toInt : ℝ) : EReal) := by
  unfold k0_pay2
  have hi : iota .tc S16x51200 32 [1] iota_S16x51200_d1_w32 (ix2 p q) = BitVec.ofNat 32 q.val :=
    iota_single_apply .tc S16x51200 32 1 iota_S16x51200_d1_w32 (ix2 p q)
  show (((Scalar.select _ _ _ : BitVec 32).toInt : ℝ) : EReal) = _
  refine congrArg (fun w : BitVec 32 => (((w.toInt : ℝ)) : EReal)) ?_
  refine Eq.trans ?_ (floorDiv100 q.val q.isLt)
  rw [← hi]
  rfl

/-- Column `k` of the converted scalar block, spread over the block, at (p, q): the integer scalar (p, k) as a real. -/
theorem scalars_at (s : Vec Ideal S16x3 .i32) (p : Fin 16) (k : Fin 3) :
    k0_pay3 (F := Ideal) s (ix2 p k) = (((s (ix2 p k)).toInt : ℝ) : EReal) := by
  unfold k0_pay3
  show ((((shapeCast S16x3 s shapeCasts_S16x3_S16x3 (ix2 p k) : BitVec 32)).toInt : ℝ) : EReal) = _
  rw [shapeCast_self]

/-- On the extended reals the float comparison is the order's. -/
theorem cmpf_ideal (pr : CmpFPredicate) (a b : EReal) :
    FloatOps.cmpf (F := Ideal) (φ := .f32) pr a b = Ideal.cmp pr a b := rfl

/-- THE BLOCK at an entry: data times the mask of the row's scalars at position `q / 100`. -/
theorem blockOut_apply (x : Vec Ideal S16x51200 .f32) (s : Vec Ideal S16x3 .i32) (p : Fin 16) (q : Fin 51200) :
    blockOut x s (ix2 p q)
      = x (ix2 p q) * maskAt (s (ix2 p 0)) (s (ix2 p 1)) (s (ix2 p 2)) (BitVec.ofNat 32 (q.val / 100)) := by
  unfold blockOut
  rw [View.canon_unit_zero origin2]
  simp only [View.ld_unit_zero (S := S16x51200) origin2, View.ld_unit_zero (S := S16x3) origin2]
  unfold k0_pay1 k0_pay5 k0_pay6 k0_pay7 k0_pay8 k0_pay4
  simp only [mulf_apply, select_apply, subf_apply, divf_apply, cmpf_apply, broadcast_apply, shapeCast_self,
    column_at, slice0_at, slice1_at, slice2_at, position_at, scalars_at, cmpf_ideal, olt_sitofp, Ideal.ofBits_def]
  rfl

end Cert.KernelIdeal.MaskValue

end
-- ==== Proof.LibNary3.lean ====
/-
  A host operation with a LITERAL family of three operand references — a three-operand concatenation — read at
  its result buffer: the operation's function applied to the three operands' contents, each at its own reference.
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- The result of an n-ary host operation over the literal family `![x, a, b]`, at its own result buffer, is its
    function of the family whose member `k` is the contents of the `k`-th reference, spelt `Fin.cons` by `Fin.cons`:
    each operand's contents then stands at a literal reference, where the single-operation result lemmas apply to it
    (under the binder of `fun k => F (![x, a, b] k)` they do not). Any buffer types, any valuation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib.Nary3

end
-- ==== Proof.KernelEntry.lean ====
/-
  The two arrays the region reads, as the host operations before it leave them, read at an entry.

  The data [512, 512, 100] is flattened row-major to [512, 51200]: entry (b, 100·l + h) of the flat array is entry
  (b, l, h) of the data. The scalar table [512, 3] is the concatenation, along the second axis, of three [512, 1]
  columns — the 32-bit sum `aspect_Index + aspect_len`, `aspect_Index`, `sents_len` — so its entry (b, k) is the
  k-th of those at sentence b.
-/
import proofs.«142707_j26783416058417_2_alg».proof.Proof.FrameKernelIdeal
import proofs.«142707_j26783416058417_2_alg».proof.Proof.LibNary3
import Idealize.ShloMosaic.Lib.Pipeline.Value
import Idealize.ShloMosaic.Lib.ValueIdx
import Idealize.ShloMosaic.Lib.StableHlo.Run

noncomputable section

namespace Cert.KernelIdeal.MaskValue

open Cert.KernelIdeal.Gen Cert.KernelIdeal.MaskMul Cert.Lib.Nary3
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The flat data the region finds is the launch data, reshaped. -/
theorem entry_data (c : Dev nD) :
    (V m c main_v5 : S512x51200.Idx → EReal)
      = shapeCast S512x51200 (m ((c : Thread nD τ).loc main_arg0)) shapeCasts_S512x512x100_S512x51200 := by
  show StableHlo.after hostOps0 (fun b => m (c, b)) (Proc.devRef .tc main_v5) = _
  after_results
  rfl

/-- The scalar table the region finds is the three broadcast columns, concatenated. -/
theorem entry_scalars (c : Dev nD) :
    (V m c main_v4 : S512x3.Idx → BitVec 32)
      = concatenate S512x3 1
          [⟨S512x1, broadcastInDim S512x1 ![0] bcast_S512_S512x1_0
              (addi (m ((c : Thread nD τ).loc main_arg1)) (m ((c : Thread nD τ).loc main_arg2)))⟩,
            ⟨S512x1, broadcastInDim S512x1 ![0] bcast_S512_S512x1_0 (m ((c : Thread nD τ).loc main_arg1))⟩,
            ⟨S512x1, broadcastInDim S512x1 ![0] bcast_S512_S512x1_0 (m ((c : Thread nD τ).loc main_arg3))⟩]
          concatenates_S512x1_S512x1_S512x1_S512x3_d1 := by
  show StableHlo.after hostOps0 (fun b => m (c, b)) (Proc.devRef .tc main_v4) = _
  simp only [after_cons, after_nil]
  rw [reshape_result_ne]; rotate_left; decide
  rw [nary3_result]
  repeat (first
    | rw [unary_result] | rw [binary_result]
    | (rw [unary_result_ne]; rotate_left; decide)
    | (rw [binary_result_ne]; rotate_left; decide))
  rfl

/-- Entry (b, 100·l + h) of the flat data is entry (b, l, h) of the data. -/
theorem data_at (c : Dev nD) (b l : Fin 512) (h : Fin 100) (j : Fin 51200) (hj : j.val = 100 * l.val + h.val) :
    (V m c main_v5 : S512x51200.Idx → EReal) (ix2 b j) = m ((c : Thread nD τ).loc main_arg0) (ix3 b l h) := by
  rw [entry_data]
  refine shapeCast_apply _ _ (ix2 b j) (ix3 b l h) ?_
  rw [Shape.rowMajor_val_three, Shape.rowMajor_val_two]
  show (b.val * 512 + l.val) * 100 + h.val = b.val * 51200 + j.val
  omega

/-- A [512] array broadcast to a [512,1] column reads, at (b, 0), its entry b. -/
theorem col_at {α : Type} (v : S512.Idx → α) (b : Fin 512) :
    broadcastInDim S512x1 ![0] bcast_S512_S512x1_0 v (ix2 b 0) = v (ix1 b) :=
  broadcastInDim_apply ![0] bcast_S512_S512x1_0 v (ix2 b 0) (ix1 b) (fun a => by
    match a with
    | ⟨0, _⟩ => show b.val = if (512 : Nat) = 1 then 0 else b.val; rw [if_neg (by decide)])

/-- Three [512,1] columns concatenated along the second axis: entry (b, k) is column k at (b, 0). -/
theorem packed_at0 {α : Type} (u0 u1 u2 : S512x1.Idx → α) (b : Fin 512) :
    concatenate S512x3 1 [⟨S512x1, u0⟩, ⟨S512x1, u1⟩, ⟨S512x1, u2⟩] concatenates_S512x1_S512x1_S512x1_S512x3_d1 (ix2 b 0)
      = u0 (ix2 b 0) :=
  concatenate_apply_piece (t := S512x3) (1 : Fin 2) [⟨S512x1, u0⟩, ⟨S512x1, u1⟩, ⟨S512x1, u2⟩] concatenates_S512x1_S512x1_S512x1_S512x3_d1 (ix2 b 0) 0 (by show (0 : Nat) < 3; omega) S512x1 u0 rfl rfl 0 rfl
    (ix2 b 0) (fun a' ha' => by
      match a', ha' with
      | ⟨0, _⟩, _ => rfl
      | ⟨1, _⟩, ha' => exact absurd rfl ha') rfl
theorem packed_at1 {α : Type} (u0 u1 u2 : S512x1.Idx → α) (b : Fin 512) :
    concatenate S512x3 1 [⟨S512x1, u0⟩, ⟨S512x1, u1⟩, ⟨S512x1, u2⟩] concatenates_S512x1_S512x1_S512x1_S512x3_d1 (ix2 b 1)
      = u1 (ix2 b 0) :=
  concatenate_apply_piece (t := S512x3) (1 : Fin 2) [⟨S512x1, u0⟩, ⟨S512x1, u1⟩, ⟨S512x1, u2⟩] concatenates_S512x1_S512x1_S512x1_S512x3_d1 (ix2 b 1) 1 (by show (1 : Nat) < 3; omega) S512x1 u1 rfl rfl 1 rfl
    (ix2 b 0) (fun a' ha' => by
      match a', ha' with
      | ⟨0, _⟩, _ => rfl
      | ⟨1, _⟩, ha' => exact absurd rfl ha') rfl
theorem packed_at2 {α : Type} (u0 u1 u2 : S512x1.Idx → α) (b : Fin 512) :
    concatenate S512x3 1 [⟨S512x1, u0⟩, ⟨S512x1, u1⟩, ⟨S512x1, u2⟩] concatenates_S512x1_S512x1_S512x1_S512x3_d1 (ix2 b 2)
      = u2 (ix2 b 0) :=
  concatenate_apply_piece (t := S512x3) (1 : Fin 2) [⟨S512x1, u0⟩, ⟨S512x1, u1⟩, ⟨S512x1, u2⟩] concatenates_S512x1_S512x1_S512x1_S512x3_d1 (ix2 b 2) 2 (by show (2 : Nat) < 3; omega) S512x1 u2 rfl rfl 2 rfl
    (ix2 b 0) (fun a' ha' => by
      match a', ha' with
      | ⟨0, _⟩, _ => rfl
      | ⟨1, _⟩, ha' => exact absurd rfl ha') rfl

/-- Sentence b's aspect end, aspect start and length, as the scalar table holds them. -/
theorem aspect_end_at (c : Dev nD) (b : Fin 512) :
    (V m c main_v4 : S512x3.Idx → BitVec 32) (ix2 b 0)
      = IntOp.addi (m ((c : Thread nD τ).loc main_arg1) (ix1 b)) (m ((c : Thread nD τ).loc main_arg2) (ix1 b)) := by
  rw [entry_scalars, packed_at0, col_at]; rfl
theorem aspect_start_at (c : Dev nD) (b : Fin 512) :
    (V m c main_v4 : S512x3.Idx → BitVec 32) (ix2 b 1) = m ((c : Thread nD τ).loc main_arg1) (ix1 b) := by
  rw [entry_scalars, packed_at1, col_at]
theorem sentence_len_at (c : Dev nD) (b : Fin 512) :
    (V m c main_v4 : S512x3.Idx → BitVec 32) (ix2 b 2) = m ((c : Thread nD τ).loc main_arg3) (ix1 b) := by
  rw [entry_scalars, packed_at2, col_at]

end Cert.KernelIdeal.MaskValue

end
-- ==== Proof.KernelArray.lean ====
/-
  The kernel's result as one function of the four arguments.

  Grid point `t` holds rows 16·t … 16·t+15 of the flat data and of the scalar table, and writes back the same rows of
  the flat result; row `p` of a block is sentence 16·t + p, so what the point writes back is block `t` of ONE function
  of the two arrays (`flatResult`: the flat data's entry times the mask of its sentence's scalars at column / 100).
  The 32 blocks tile the 512 rows, so the flat result array ends holding that function; the host operation after the
  region un-flattens it, and entry (b, l, h) of the result is entry (b, 100·l + h) of the flat result, whose position
  (100·l + h) / 100 is `l`.
-/
import proofs.«142707_j26783416058417_2_alg».proof.Proof.KernelBlock
import proofs.«142707_j26783416058417_2_alg».proof.Proof.KernelEntry

noncomputable section

namespace Cert.KernelIdeal.MaskValue

open Cert.KernelIdeal.Gen Cert.KernelIdeal.MaskMul Cert.MaskSpec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The sentence of a flat entry. -/
def flatRow (i : S512x51200.Idx) : Fin 512 := ⟨(i 0).val, (i 0).isLt⟩

/-- The flat result from the flat data `D` and the scalar table `S`. -/
def flatResult (D : S512x51200.Idx → EReal) (S : S512x3.Idx → BitVec 32) : S512x51200.Idx → EReal := fun i =>
  D i * maskAt (S (ix2 (flatRow i) 0)) (S (ix2 (flatRow i) 1)) (S (ix2 (flatRow i) 2)) (BitVec.ofNat 32 ((i 1).val / 100))

/-- The flat result at sentence `b`, column `j`. -/
theorem flatResult_at (D : S512x51200.Idx → EReal) (S : S512x3.Idx → BitVec 32) (b : Fin 512) (j : Fin 51200) :
    flatResult D S (ix2 b j)
      = D (ix2 b j) * maskAt (S (ix2 b 0)) (S (ix2 b 1)) (S (ix2 b 2)) (BitVec.ofNat 32 (j.val / 100)) := rfl

/-- The three windows move together: at point `t` each is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- The data block at point `t`, at (y₀, y₁), is the flat data at row 16·t + y₀, column y₁. -/
theorem data_block_at (c : Dev nD) (t : Fin cfg0.N) (y : S16x51200.Idx) (i : S512x51200.Idx)
    (h0 : (i 0).val = t.val * 16 + (y 0).val) (h1 : (i 1).val = (y 1).val) :
    iblk m c 0 t y = (V m c main_v5 : S512x51200.Idx → EReal) i := by
  show (V m c main_v5 : S512x51200.Idx → EReal) (((cfg0.win 0).blk t).view.emb y) = _
  refine congrArg _ (funext fun a => Fin.ext ?_)
  obtain ⟨e0, e1, -⟩ := idx_facts t
  match a with
  | ⟨0, _⟩ => show win0_0.index t (0 : Fin 2) * 16 + 1 * (y 0).val = (i 0).val; omega
  | ⟨1, _⟩ => show win0_0.index t (1 : Fin 2) * 51200 + 1 * (y 1).val = (i 1).val; omega

/-- The scalar block at point `t`, at (y₀, k), is the scalar table at row 16·t + y₀, column k. -/
theorem scalar_block_at (c : Dev nD) (t : Fin cfg0.N) (y : S16x3.Idx) (i : S512x3.Idx)
    (h0 : (i 0).val = t.val * 16 + (y 0).val) (h1 : (i 1).val = (y 1).val) :
    iblk m c 1 t y = (V m c main_v4 : S512x3.Idx → BitVec 32) i := by
  show (V m c main_v4 : S512x3.Idx → BitVec 32) (((cfg0.win 1).blk t).view.emb y) = _
  refine congrArg _ (funext fun a => Fin.ext ?_)
  obtain ⟨-, -, e2, e3, -⟩ := idx_facts t
  match a with
  | ⟨0, _⟩ => show win0_1.index t (0 : Fin 2) * 16 + 1 * (y 0).val = (i 0).val; omega
  | ⟨1, _⟩ => show win0_1.index t (1 : Fin 2) * 3 + 1 * (y 1).val = (i 1).val; omega

/-- What the body leaves at point `t`, entry by entry, is the flat result at the entry's place in the array. -/
theorem point_eq (c : Dev nD) (t : Fin cfg0.N) (j : S16x51200.Idx) :
    blockOut (iblk m c 0 t) (iblk m c 1 t) j
      = flatResult (V m c main_v5) (V m c main_v4) (((cfg0.win 2).blk t).view.emb j) := by
  obtain ⟨p, q, rfl⟩ : ∃ (p : Fin 16) (q : Fin 51200), j = ix2 p q := ⟨j 0, j 1, eq_ix2 j⟩
  refine (blockOut_apply (iblk m c 0 t) (iblk m c 1 t) p q).trans ?_
  obtain ⟨-, -, -, -, e4, e5⟩ := idx_facts t
  generalize hI : ((cfg0.win 2).blk t).view.emb (ix2 p q) = I
  have hi0 : (I 0).val = t.val * 16 + p.val := by
    rw [← hI]; show win0_2.index t (0 : Fin 2) * 16 + 1 * p.val = _; omega
  have hi1 : (I 1).val = q.val := by
    rw [← hI]; show win0_2.index t (1 : Fin 2) * 51200 + 1 * q.val = _; omega
  have hd := data_block_at m c t (ix2 p q) I hi0 hi1
  have hs : ∀ k : Fin 3, iblk m c 1 t (ix2 p k) = (V m c main_v4 : S512x3.Idx → BitVec 32) (ix2 (flatRow I) k) :=
    fun k => scalar_block_at m c t (ix2 p k) (ix2 (flatRow I) k) hi0 rfl
  unfold flatResult
  rw [hd, hs 0, hs 1, hs 2, hi1]

/-- WHAT POINT `t` WRITES BACK is block `t` of the flat result. -/
theorem flushed_eq (c : Dev nD) (t : Fin cfg0.N) :
    (dats m 0 c).flushed 2 t
      = ((cfg0.win 2).blk t).view.read (Elt Ideal) (flatResult (V m c main_v5) (V m c main_v4)) := by
  show (cfg0.win 2).cut (grid0.coords t) ((dats m 0 c).after 2 t) = _
  rw [after_result]
  funext j
  exact point_eq m c t j

/-- An index of the flat result is in point `t`'s block iff each coordinate is in the block's range. -/
theorem mem_block (t : Fin cfg0.N) (i : S512x51200.Idx) :
    i ∈ ((cfg0.win 2).blk t).view.set ↔ ∀ a : Fin 2, win0_2.index t a * S16x51200.size a ≤ (i a).val
      ∧ (i a).val < win0_2.index t a * S16x51200.size a + S16x51200.size a := by
  show i ∈ ((View.whole main_v6).slice (win0_2.rect t)).set ↔ _
  rw [View.set_slice_whole, Rect.mem_set_unit]
  exact Iff.rfl

/-- Row r of the flat result is in the block of point r / 16: the 32 blocks of 16 rows tile the 512 rows. -/
theorem covered (i : S512x51200.Idx) :
    ∃ t : Fin cfg0.N, (cfg0.win 2).flush t = true ∧ i ∈ ((cfg0.win 2).blk t).view.set := by
  have hi0 : (i 0).val < 512 := (i 0).isLt
  have hi1 : (i 1).val < 51200 := (i 1).isLt
  obtain ⟨t, ht⟩ := idx_onto ⟨(i 0).val / 16, by omega⟩
  have q0 : win0_2.index t (0 : Fin 2) = (i 0).val / 16 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 51200 ≤ (i 1).val ∧ (i 1).val < win0_2.index t (1 : Fin 2) * 51200 + 51200
    omega

/-- THE FLAT RESULT ARRAY after the region. -/
theorem final (c : Dev nD) :
    (dats m 0 c).arrAt 2 cfg0.N = flatResult (V m c main_v5) (V m c main_v4) :=
  (dats m 0 c).arrAt_eq_of_cover 2 _ (fun t _ => flushed_eq m c t) covered

/-- The result buffer at the end: the flat result, un-flattened by the host operation after the region. -/
theorem result_eq (c : Dev nD) :
    Pipeline.afterTail₀ cfgs (dats m) 0 (V0 m) [hostOps1] c main_v7
      = shapeCast S512x512x100 (flatResult (V m c main_v5) (V m c main_v4)) shapeCasts_S512x51200_S512x512x100 := by
  have hw : Pipeline.withArrays spec0 c (V0 m c) (fun w => (dats m 0 c).arrAt w cfg0.N) (Proc.devRef .tc main_v6)
      = flatResult (V m c main_v5) (V m c main_v4) :=
    (Pipeline.withArrays_arr spec0 launch0.win.arr_inj c _ _ 2).trans (final m c)
  unfold Pipeline.afterTail₀
  show StableHlo.after hostOps1 _ (Proc.devRef .tc main_v7) = _
  after_results
  rw [hw]
  rfl

/-- Entry (b, l, h) of an un-flattened [512, 51200] array is its entry (b, 100·l + h). -/
theorem unflatten_at {α : Type} (Y : S512x51200.Idx → α) (b l : Fin 512) (h : Fin 100) (j : Fin 51200)
    (hj : j.val = 100 * l.val + h.val) :
    shapeCast S512x512x100 Y shapeCasts_S512x51200_S512x512x100 (ix3 b l h) = Y (ix2 b j) := by
  refine shapeCast_apply _ _ (ix3 b l h) (ix2 b j) ?_
  rw [Shape.rowMajor_val_three, Shape.rowMajor_val_two]
  show b.val * 51200 + j.val = (b.val * 512 + l.val) * 100 + h.val
  omega

/-- THE KERNEL'S RESULT is `G` of the four arguments. -/
theorem kernel_is_G (c : Dev nD) :
    Pipeline.afterTail₀ cfgs (dats m) 0 (V0 m) [hostOps1] c main_v7
      = G (m ((c : Thread nD τ).loc main_arg0)) (m ((c : Thread nD τ).loc main_arg1))
          (m ((c : Thread nD τ).loc main_arg2)) (m ((c : Thread nD τ).loc main_arg3)) := by
  rw [result_eq]
  funext i
  obtain ⟨b, l, h, rfl⟩ : ∃ (b l : Fin 512) (h : Fin 100), i = ix3 b l h := ⟨i 0, i 1, i 2, eq_ix3 i⟩
  have hlt : 100 * l.val + h.val < 51200 := by have := l.isLt; have := h.isLt; omega
  refine (unflatten_at _ b l h ⟨100 * l.val + h.val, hlt⟩ rfl).trans ?_
  refine (flatResult_at _ _ b ⟨100 * l.val + h.val, hlt⟩).trans ?_
  have hpos : (⟨100 * l.val + h.val, hlt⟩ : Fin 51200).val / 100 = l.val := by
    show (100 * l.val + h.val) / 100 = l.val
    have := h.isLt; omega
  rw [data_at m c b l h ⟨100 * l.val + h.val, hlt⟩ rfl, aspect_end_at, aspect_start_at, sentence_len_at, hpos]
  rfl

/-- THE KERNEL'S RUN: every weakly fair execution ends with the result buffer at `G` of the launch arguments and
    the arguments unchanged. -/
theorem kernel_run : θ_run defs (onTc (τ := τ) (main (F := Ideal))) ⟨m, fun _ => 0, ρ⟩ (fun r => ∀ c : Dev nD,
      r.2.mem ((c.tc : Thread nD τ).loc main_v7)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (kernel_is_G m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.MaskValue

end
-- ==== Proof.RefValue.lean ====
/-
  The reference computes `G`: its 41 host operations, read one at a time at an index (the generated stage lemmas),
  compose to the data's entry times the position mask. The position comes from an iota over the 512 positions
  broadcast along the sentences, the three scalars from [512] → [512,1] → [512,512] broadcasts of the integer
  arrays, so every composed index map lands on the entry's own sentence (`row i`) and position (`i 1`); the mask is
  broadcast along the features, so the feature coordinate drops out.
-/
import proofs.«142707_j26783416058417_2_alg».proof.Proof.Gen.ReferenceIdeal.Read
import proofs.«142707_j26783416058417_2_alg».proof.Proof.MaskSpec

noncomputable section

namespace Cert.ReferenceIdeal.RefValue

open Cert.ReferenceIdeal Cert.ReferenceIdeal.Read Idealize.ShloMosaic Cert.MaskSpec

/-- An integer converts to the real number it is. -/
theorem sitofp_ideal (b : BitVec 32) : FloatOps.sitofp (F := Ideal) .f32 b = ((b.toInt : ℝ) : EReal) := rfl

/-- The reference's result, as the last stage states it, is `G` of the four arguments. -/
theorem ref_is_G (x0 : (⟨S512x512x100, .f32⟩ : BufTy).Contents (Elt Ideal)) (x1 x2 x3 : (⟨S512, .i32⟩ : BufTy).Contents (Elt Ideal)) :
    val_main_v33 (F := Ideal) x0 x1 x2 x3 = G x0 x1 x2 x3 := by
  funext i
  -- the four routes from an entry to its sentence's scalars all end at `row i`
  have hEndI : idx_main_v4 (idx_main_v10 (idx_main_v31 (idx_main_v32 i))) = row i :=
    funext fun a => by match a with | ⟨0, _⟩ => rfl
  have hEndF : idx_main_v4 (idx_main_v12 (idx_main_v31 (idx_main_v32 i))) = row i :=
    funext fun a => by match a with | ⟨0, _⟩ => rfl
  have hIdx : idx_main_v6 (idx_main_v23 (idx_main_v31 (idx_main_v32 i))) = row i :=
    funext fun a => by match a with | ⟨0, _⟩ => rfl
  have hLen : idx_main_v8 (idx_main_v20 (idx_main_v31 (idx_main_v32 i))) = row i :=
    funext fun a => by match a with | ⟨0, _⟩ => rfl
  simp only [val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply, val_main_cst_3_apply,
    val_main_call0_v0_apply, val_main_call0_v1_apply,
    hEndI, hEndF, hIdx, hLen, sitofp_ideal, Ideal.ofBits_def, Ideal.subf_def, Ideal.mulf_def, Ideal.hostDivf_def]
  rfl

end Cert.ReferenceIdeal.RefValue

end
-- ==== Proof.lean ====
/-
  The proof of `Cert.Claim`: a position-decay mask applied to [512, 512, 100] data.

  Both programs compute, at entry (b, l, h), the data's entry times the weight of position `l` in sentence `b`
  (`Cert.MaskSpec.G`, Proof/MaskSpec.lean): 1 − (e − l)/40 before the aspect's end e, 1 − (l − a)/40 from there to the
  sentence's length, 0 beyond — e, a and the length read off three per-sentence integer arrays. The reference builds
  the [512, 512] mask on the host from integer comparisons and broadcasts it along the features. The kernel flattens
  positions and features into one axis of 51200 columns, packs the three scalars into a [512, 3] table, and over 32
  blocks of 16 sentences recomputes the position of column q as q / 100 and compares the converted numbers. On the
  extended reals an integer converts to the real it is, so the converted comparison is the integers' own, and the two
  results are the same expression of the same entries: no finiteness of the data is used.

  Proof/FrameKernel.lean and Proof/FrameKernelIdeal.lean run each kernel program to its end (the frames);
  Proof/KernelBlock.lean, KernelEntry.lean and KernelArray.lean read the idealized kernel's result as `G`;
  Proof/RefValue.lean reads the reference's result as `G`. The idealization rewrote nothing, so `preserves` is trivial.
-/
import proofs.«142707_j26783416058417_2_alg».proof.Defs
import proofs.«142707_j26783416058417_2_alg».proof.Proof.FrameKernel
import proofs.«142707_j26783416058417_2_alg».proof.Proof.KernelArray
import proofs.«142707_j26783416058417_2_alg».proof.Proof.RefValue
import proofs.«142707_j26783416058417_2_alg».proof.Proof.Gen.Kernel
import proofs.«142707_j26783416058417_2_alg».proof.Proof.Gen.KernelIdeal
import proofs.«142707_j26783416058417_2_alg».proof.Proof.Gen.ReferenceIdeal
import proofs.«142707_j26783416058417_2_alg».proof.Proof.Gen.Pre_finite_inputs
import Idealize.ShloMosaic.Adequacy
import Idealize.ShloMosaic.Init

noncomputable section

namespace Cert.Proof

open Idealize.ShloMosaic Idealize.SL.Sem

/-- The kernel as printed runs to its end and leaves its four arguments as launched. -/
theorem frame_kernel : Cert.frame_Kernel := fun m ρ _ => Cert.Kernel.MaskMul.frame m ρ

/-- So does its idealization. -/
theorem frame_kernelIdeal : Cert.frame_KernelIdeal := fun m ρ _ => Cert.KernelIdeal.MaskMul.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel and the idealized reference both end with the
    result at `G` of the arguments. -/
theorem algebraic : Cert.algebraic_KernelIdeal_ReferenceIdeal := by
  intro m ρ m' ρ' _ hagree
  refine ⟨fun c => Cert.MaskSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.MaskValue.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_is_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
